-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x128 .f32) (main_arg1 : FVec F S1600000 .f32) (main_arg2 : FVec F S128x128 .f32) (main_arg3 : FVec F S128 .f32) (main_arg4 : FVec F S128x128 .f32) (main_arg5 : FVec F S128 .f32) (main_arg6 : IVec S1600000 32) (main_arg7 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S2000x128 : Shape := ⟨2, ![2000, 128]⟩

abbrev nBuf : Space → Nat
  | .hbm => 29
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S1600000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1600000, .i32⟩
  | .hbm, ⟨7, _⟩ => ⟨S1600000, .i32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .f32⟩
  | .hbm, ⟨17, _⟩ => ⟨S1600000x1, .f32⟩
  | .hbm, ⟨18, _⟩ => ⟨S1600000x128, .f32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S128x128, .bf16⟩
  | .hbm, ⟨25, _⟩ => ⟨S128x128, .bf16⟩
  | .hbm, ⟨26, _⟩ => ⟨S1x128, .f32⟩
  | .hbm, ⟨27, _⟩ => ⟨S1x128, .f32⟩
  | .hbm, ⟨28, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .bf16⟩
  | .local _ .vmem, ⟨5, _⟩ => ⟨S1x128, .f32⟩
  | .local _ .vmem, ⟨6, _⟩ => ⟨S128x128, .bf16⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bitsLt_bf16_f32 : FTy.bits .bf16 < FTy.bits .f32
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S100000x128.size a
  hwx0_6 : ∀ i : grid0.Coords, EltTy.bits .f32 = 32 ∨ (Rect.block (s := S100000x128) S2000x128.size (cc0_transform_6 i) (hinb0_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 51
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1600000, .i32⟩
  | .hbm, ⟨7, _⟩ => ⟨S1600000, .i32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .f32⟩
  | .hbm, ⟨17, _⟩ => ⟨S1600000x1, .f32⟩
  | .hbm, ⟨18, _⟩ => ⟨S1600000x128, .f32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S100000x128, .f32⟩
  | .hbm, ⟨25, _⟩ => ⟨S100000x128, .f32⟩
  | .hbm, ⟨26, _⟩ => ⟨S1x128, .f32⟩
  | .hbm, ⟨27, _⟩ => ⟨S100000x128, .f32⟩
  | .hbm, ⟨28, _⟩ => ⟨S100000x128, .f32⟩
  | .hbm, ⟨29, _⟩ => ⟨S_, .f32⟩
  | .hbm, ⟨30, _⟩ => ⟨S_, .f32⟩
  | .hbm, ⟨31, _⟩ => ⟨S100000x128, .f32⟩
  | .hbm, ⟨32, _⟩ => ⟨S100000x128, .i1⟩
  | .hbm, ⟨33, _⟩ => ⟨S_, .f32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S_, .f32⟩
  | .hbm, ⟨43, _⟩ => ⟨S_, .f32⟩
  | .hbm, ⟨44, _⟩ => ⟨S100000x128, .f32⟩
  | .hbm, ⟨45, _⟩ => ⟨S100000x128, .i1⟩
  | .hbm, ⟨46, _⟩ => ⟨S_, .f32⟩
  | .hbm, ⟨47, _⟩ => ⟨S100000x128, .f32⟩
  | .hbm, ⟨48, _⟩ => ⟨S100000x128, .f32⟩
  | .hbm, ⟨49, _⟩ => ⟨S100000x128, .f32⟩
  | .hbm, ⟨50, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_call0_cst : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_2 : Ref sig .tc := ⟨.hbm, 42, rfl⟩
abbrev main_call1_cst : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_v24 : Ref sig .tc := ⟨.hbm, 49, rfl⟩
abbrev main_v25 : Ref sig .tc := ⟨.hbm, 50, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  The graph layer that both programs compute, written once as a function of the argument arrays over the
  extended reals.

  * `aggregate`: the neighbourhood sum. Every edge e carries the row of the node table at its source (a negative
    source index counted from the end of the table), scaled by the edge's weight, and the rows are added up at the
    edge's destination: one composite of host operations, which the two programs apply to the same arrays.
  * `leaky`: the leaky rectifier with the single-precision slope word nearest one hundredth. A comparison with
    zero that is strict and one that is not select the same value, because at zero both arms are zero.
  * `branch`: a linear map followed by the rectifier, at node p and output feature q: the sum over the 128 input
    features of x (p, k) · W (k, q), plus the bias at q.
  * `layer`: the sum of two branches, one fed the sum ego + side and one the product ego · side.
-/
import Idealize.ShloMosaic.Lib.ValueIdx
import Idealize.ShloMosaic.PureOps.Ideal.Laws

noncomputable section

namespace Cert.Layer

open Idealize.ShloMosaic Idealize.ShloMosaic.ValueIdx
open scoped BigOperators

/-- The node table: 100000 nodes by 128 features. -/
abbrev Nodes : Shape := ⟨2, ![100000, 128]⟩
/-- One entry per edge. -/
abbrev Edges : Shape := ⟨1, ![1600000]⟩
/-- One entry per edge, as a column. -/
abbrev EdgeCol : Shape := ⟨2, ![1600000, 1]⟩
/-- One row of 128 features per edge. -/
abbrev EdgeRows : Shape := ⟨2, ![1600000, 128]⟩
/-- A 128 by 128 weight matrix. -/
abbrev Square : Shape := ⟨2, ![128, 128]⟩
/-- A bias vector. -/
abbrev Feat : Shape := ⟨1, ![128]⟩
/-- A scalar. -/
abbrev Point : Shape := ⟨0, ![]⟩

/-- The neighbourhood sum as the composite of the host operations both programs apply: the source indices wrapped
    (a negative one has the table's length added), the rows gathered, each scaled by its edge's weight, and the
    scaled rows added into a zero table at the destination indices. -/
def aggregate {F : FTy → Type} [FloatOps F]
    (gd : GatherDims Nodes EdgeCol EdgeRows) (sd : ScatterDims Nodes EdgeCol EdgeRows)
    (hpe : Point.BroadcastsInDim Edges (![] : Fin 0 → Fin Edges.rank))
    (hec : Edges.BroadcastsInDim EdgeCol (![0] : Fin 1 → Fin EdgeCol.rank))
    (hcr : EdgeCol.BroadcastsInDim EdgeRows (![0, 1] : Fin 2 → Fin EdgeRows.rank))
    (hpn : Point.BroadcastsInDim Nodes (![] : Fin 0 → Fin Nodes.rank))
    (ego : FVec F Nodes .f32) (w : FVec F Edges .f32) (src dst : IVec Edges 32) : FVec F Nodes .f32 :=
  Host.scatterAdd sd
    (broadcastInDim Nodes ![] hpn (constant Point .f32 0x00000000#32))
    (broadcastInDim EdgeCol ![0] hec dst)
    (mulf
      (Host.gather gd ego
        (broadcastInDim EdgeCol ![0] hec
          (select (cmpi .slt src (broadcastInDim Edges ![] hpe (constantI Point 32 0#32)))
            (addi src (broadcastInDim Edges ![] hpe (constantI Point 32 100000#32))) src)))
      (broadcastInDim EdgeRows ![0, 1] hcr (broadcastInDim EdgeCol ![0] hec w)))

/-- The rectifier's slope: the single-precision word nearest one hundredth, read exactly; the same word stands in
    both programs. -/
def slope : EReal := Ideal.ofBits .f32 0x3C23D70A#32

/-- The leaky rectifier on the extended reals: the identity above zero, the slope times the argument elsewhere. -/
def leaky (x : EReal) : EReal := if 0 < x then x else slope * x

/-- Selecting by the strict comparison with zero is the rectifier. -/
theorem select_gt (x : EReal) : Scalar.select (Ideal.cmp .ogt x 0) x (slope * x) = leaky x := by
  unfold leaky
  by_cases h : 0 < x
  · simp [Ideal.cmp, Scalar.select, h]
  · simp [Ideal.cmp, Scalar.select, h]

/-- Selecting by the weak comparison with zero is the rectifier too: the two differ only at zero, where the
    slope times zero is zero. -/
theorem select_ge (x : EReal) : Scalar.select (Ideal.cmp .oge x 0) x (slope * x) = leaky x := by
  unfold leaky
  by_cases h : 0 < x
  · simp [Ideal.cmp, Scalar.select, h, le_of_lt h]
  · by_cases h0 : 0 ≤ x
    · have hx : x = 0 := le_antisymm (not_lt.mp h) h0
      subst hx
      simp [Ideal.cmp, Scalar.select]
    · simp [Ideal.cmp, Scalar.select, h, h0]

/-- A linear map followed by the rectifier, at row p and output feature q of a table with any number of rows. -/
def branch {n : Nat} (x : (⟨2, ![n, 128]⟩ : Shape).Idx → EReal) (W : Square.Idx → EReal) (bias : Fin 128 → EReal)
    (p : Fin n) (q : Fin 128) : EReal :=
  leaky (∑ k : Fin 128, x (ix2 p k) * W (ix2 k q) + bias q)

/-- The layer: the branch of ego + side through (W1, b1) plus the branch of ego · side through (W2, b2). -/
def layer (ego side : Nodes.Idx → EReal) (W1 : Square.Idx → EReal) (b1 : Feat.Idx → EReal)
    (W2 : Square.Idx → EReal) (b2 : Feat.Idx → EReal) : Nodes.Idx → EReal := fun i =>
  branch (fun j => ego j + side j) W1 (fun q => b1 (ix1 q)) (i 0) (i 1)
    + branch (fun j => ego j * side j) W2 (fun q => b2 (ix1 q)) (i 0) (i 1)

/-- The layer at explicit coordinates. -/
theorem layer_apply (ego side : Nodes.Idx → EReal) (W1 : Square.Idx → EReal) (b1 : Feat.Idx → EReal)
    (W2 : Square.Idx → EReal) (b2 : Feat.Idx → EReal) (p : Fin 100000) (q : Fin 128) :
    layer ego side W1 b1 W2 b2 (ix2 p q)
      = branch (fun j => ego j + side j) W1 (fun q => b1 (ix1 q)) p q
        + branch (fun j => ego j * side j) W2 (fun q => b2 (ix1 q)) p q := rfl

end Cert.Layer

end
-- ==== Proof.LibPlainMatmul.lean ====
/-
  Two families of small facts about arrays read at coordinates, over literal rank-2 and rank-3 shapes of any sizes.

  * A plain rows-by-columns matrix product — the left operand contracted on its columns, the right on its rows, no
    batch axis — into the zero accumulator, over the extended reals: at `(p, q)` it is the sum over the shared axis
    of the products of row `p` of the left operand and column `q` of the right. A product record of any program
    with these dimension numbers unifies with `plainDims` by unfolding, so the lemma applies to it through
    `refine (matmul_zero_plain _ _ _ p q).trans ?_`.
  * Unit axes added by a shape cast (`[a, c] → [a, 1, c]`, `[c] → [1, 1, c]`) and broadcasts along one or two unit
    axes (`[a, 1, c]`, `[1, b, c]`, `[1, 1, c] → [a, b, c]`), each read at explicit coordinates: a unit axis
    contributes nothing to the row-major position, and a broadcast reads its operand at coordinate zero of the
    axes it spreads.
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibPlainMatmul

open Idealize.ShloMosaic Idealize.ShloMosaic.ValueIdx
open scoped BigOperators

/-! ## A rows-by-columns product into the zero accumulator -/

/-- The dimension numbers of a plain m × k by k × n product: the left operand contracted on its columns, the right on
    its rows, no batch axis. -/
abbrev plainDims {m k n : Nat} (wf : DotDims.WF (⟨2, ![m, k]⟩ : Shape) ⟨2, ![k, n]⟩ ⟨2, ![m, n]⟩ [1] [0] [0] [1] [] []) :
    DotDims ⟨2, ![m, k]⟩ ⟨2, ![k, n]⟩ ⟨2, ![m, n]⟩ := ⟨[1], [0], [0], [1], [], [], wf⟩

section PlainDims
variable {m k n : Nat} (wf : DotDims.WF (⟨2, ![m, k]⟩ : Shape) ⟨2, ![k, n]⟩ ⟨2, ![m, n]⟩ [1] [0] [0] [1] [] [])

/-- The left operand is read in the result's row … -/
theorem plain_lhs_row (j : (⟨2, ![m, n]⟩ : Shape).Idx) (c : (plainDims wf).contr.Idx) :
    ((plainDims wf).lhsIdx j c 0).val = (j 0).val := by
  unfold DotDims.lhsIdx
  rw [dif_neg (show ¬(0 : Fin (⟨2, ![m, k]⟩ : Shape).rank) ∈ (plainDims wf).lhsBatch from List.not_mem_nil),
    dif_pos (show (0 : Fin (⟨2, ![m, k]⟩ : Shape).rank) ∈ (plainDims wf).lhsNonContracting from List.mem_singleton.mpr rfl)]
  rfl

/-- … and the right operand in the result's column. -/
theorem plain_rhs_col (j : (⟨2, ![m, n]⟩ : Shape).Idx) (c : (plainDims wf).contr.Idx) :
    ((plainDims wf).rhsIdx j c 1).val = (j 1).val := by
  unfold DotDims.rhsIdx
  rw [dif_neg (show ¬(1 : Fin (⟨2, ![k, n]⟩ : Shape).rank) ∈ (plainDims wf).rhsBatch from List.not_mem_nil),
    dif_pos (show (1 : Fin (⟨2, ![k, n]⟩ : Shape).rank) ∈ (plainDims wf).rhsNonContracting from List.mem_singleton.mpr rfl)]
  rfl

/-- Such a product into the zero accumulator reads, at (p, q), the sum over the shared axis of the products of row p
    of the left operand and column q of the right. -/
theorem matmul_zero_plain {φ₁ φ₂ : FTy} (l : FVec Ideal ⟨2, ![m, k]⟩ φ₁) (r : FVec Ideal ⟨2, ![k, n]⟩ φ₂)
    (p : Fin m) (q : Fin n) :
    FloatOps.matmul (plainDims wf) none l r (constant (F := Ideal) ⟨2, ![m, n]⟩ .f32 0x00000000#32) (ix2 p q)
      = ∑ c : Fin k, l (ix2 p c) * r (ix2 c q) := by
  rw [Ideal.matmul_constant_zero_apply, ← Equiv.sum_comp (contrEquiv1 (plainDims wf) k rfl rfl).symm]
  refine Finset.sum_congr rfl fun c _ => ?_
  have hc := contrEquiv1_symm_val (plainDims wf) k rfl rfl c
  have el : (plainDims wf).lhsIdx (ix2 p q) ((contrEquiv1 (plainDims wf) k rfl rfl).symm c) = ix2 p c :=
    funext fun a => Fin.ext (by
      match a with
      | ⟨0, _⟩ => exact plain_lhs_row wf _ _
      | ⟨1, _⟩ => exact ((plainDims wf).lhsIdx_val_of_single rfl _ _).trans hc)
  have er : (plainDims wf).rhsIdx (ix2 p q) ((contrEquiv1 (plainDims wf) k rfl rfl).symm c) = ix2 c q :=
    funext fun a => Fin.ext (by
      match a with
      | ⟨0, _⟩ => exact ((plainDims wf).rhsIdx_val_of_single rfl _ _).trans hc
      | ⟨1, _⟩ => exact plain_rhs_col wf _ _)
  rw [el, er]

end PlainDims

/-! ## Unit axes added, and broadcasts along an axis, read at coordinates -/

section Layout
variable {α : Type}

/-- An [a, c] array cast to [a, 1, c] reads, at (p, z, s), the operand at (p, s). -/
theorem shapeCast_ac_a1c_apply {a c : ℕ} (x : (⟨2, ![a, c]⟩ : Shape).Idx → α)
    (h : (⟨2, ![a, c]⟩ : Shape).ShapeCasts ⟨3, ![a, 1, c]⟩) (p : Fin a) (z : Fin 1) (s : Fin c) :
    shapeCast ⟨3, ![a, 1, c]⟩ x h (ix3 p z s) = x (ix2 p s) :=
  shapeCast_apply x h _ _ (by
    have hz : z.val = 0 := by omega
    rw [Shape.rowMajor_val_three, Shape.rowMajor_val_two]
    show p.val * c + s.val = (p.val * 1 + z.val) * c + s.val
    rw [hz, Nat.mul_one, Nat.add_zero])

/-- A [c] array cast to [1, 1, c] reads, at (y, z, s), the operand at s. -/
theorem shapeCast_c_11c_apply {c : ℕ} (x : (⟨1, ![c]⟩ : Shape).Idx → α)
    (h : (⟨1, ![c]⟩ : Shape).ShapeCasts ⟨3, ![1, 1, c]⟩) (y z : Fin 1) (s : Fin c) :
    shapeCast ⟨3, ![1, 1, c]⟩ x h (ix3 y z s) = x (ix1 s) :=
  shapeCast_apply x h _ _ (by
    have hy : y.val = 0 := by omega
    have hz : z.val = 0 := by omega
    rw [Shape.rowMajor_val_three, Shape.rowMajor_val_one]
    show s.val = (y.val * 1 + z.val) * c + s.val
    simp only [hy, hz, Nat.zero_mul, Nat.zero_add, Nat.mul_one])

/-- An [a, 1, c] array broadcast to [a, b, c] reads, at (p, q, s), the operand at (p, 0, s). -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (s : Fin c) :
    broadcastTo ⟨3, ![a, b, c]⟩ x h (ix3 p q s) = x (ix3 p (0 : Fin 1) s) := by
  refine broadcastTo_apply x h (ix3 p q s) (ix3 p (0 : Fin 1) s) fun ax => ?_
  match ax with
  | ⟨0, _⟩ =>
    show p.val = if a = 1 then 0 else p.val
    split
    · have := p.isLt; omega
    · rfl
  | ⟨1, _⟩ => rfl
  | ⟨2, _⟩ =>
    show s.val = if c = 1 then 0 else s.val
    split
    · have := s.isLt; omega
    · rfl

/-- A [1, b, c] array broadcast to [a, b, c] reads, at (p, q, s), the operand at (0, q, s). -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (s : Fin c) :
    broadcastTo ⟨3, ![a, b, c]⟩ x h (ix3 p q s) = x (ix3 (0 : Fin 1) q s) := by
  refine broadcastTo_apply x h (ix3 p q s) (ix3 (0 : Fin 1) q s) fun ax => ?_
  match ax with
  | ⟨0, _⟩ => rfl
  | ⟨1, _⟩ =>
    show q.val = if b = 1 then 0 else q.val
    split
    · have := q.isLt; omega
    · rfl
  | ⟨2, _⟩ =>
    show s.val = if c = 1 then 0 else s.val
    split
    · have := s.isLt; omega
    · rfl

/-- A [1, 1, c] array broadcast to [a, b, c] reads, at (p, q, s), the operand at (0, 0, s). -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (s : Fin c) :
    broadcastTo ⟨3, ![a, b, c]⟩ x h (ix3 p q s) = x (ix3 (0 : Fin 1) (0 : Fin 1) s) := by
  refine broadcastTo_apply x h (ix3 p q s) (ix3 (0 : Fin 1) (0 : Fin 1) s) fun ax => ?_
  match ax with
  | ⟨0, _⟩ => rfl
  | ⟨1, _⟩ => rfl
  | ⟨2, _⟩ =>
    show s.val = if c = 1 then 0 else s.val
    split
    · have := s.isLt; omega
    · rfl

end Layout

end Cert.LibPlainMatmul

end
-- ==== Proof.KernelPayload.lean ====
/-
  What the kernel body writes, read at one entry of its output block.

  The body loads a block of 2000 rows of the node table (x0), the matching block of the neighbourhood sums (x1),
  the two weight matrices and the two bias rows, and stores
      leaky ((x0 + x1) · W1 + b1) + leaky ((x0 · x1) · W2 + b2).
  At row p and feature q of the block this is the layer's two branches at (p, q): each matrix product into the zero
  accumulator is the sum over the 128 shared features, the narrowing of the operands to half width is the identity
  on the extended reals, the bias row is repeated down the rows, and the strict comparison with zero selects the
  leaky rectifier.
-/
import proofs.«160243_j3582002725211_1_alg».proof.Proof.Gen.KernelIdeal.Skeleton
import proofs.«160243_j3582002725211_1_alg».proof.Proof.Spec
import proofs.«160243_j3582002725211_1_alg».proof.Proof.LibPlainMatmul
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx
open scoped BigOperators

/-- One linear map of the body at row p, feature q: the product of the narrowed block with the weight matrix into
    the zero accumulator, plus the bias row repeated down the rows, is the sum over the shared features of
    x (p, k) · w (k, q), plus the bias at q. -/
theorem lin_apply (x : FVec Ideal S2000x128 .f32) (w : FVec Ideal S128x128 .bf16) (r : FVec Ideal S1x128 .f32)
    (p : Fin 2000) (q : Fin 128) :
    addf (matmul dot_S2000x128_S128x128_S2000x128_1_0_0_1_n_n none (truncf .bf16 x bitsLt_bf16_f32)
          (shapeCast S128x128 w shapeCasts_S128x128_S128x128) (constant S2000x128 .f32 0x00000000#32))
        (broadcastTo S2000x128 (shapeCast S1x128 r shapeCasts_S1x128_S1x128) broadcasts_S1x128_S2000x128) (ix2 p q)
      = ∑ k : Fin 128, x (ix2 p k) * w (ix2 k q) + r (ix2 (0 : Fin 1) q) := by
  rw [shapeCast_self, shapeCast_self]
  show FloatOps.matmul _ none _ _ _ (ix2 p q) + broadcastTo S2000x128 r broadcasts_S1x128_S2000x128 (ix2 p q) = _
  refine congrArg₂ (· + ·) ?_ ?_
  · exact (Cert.LibPlainMatmul.matmul_zero_plain _ _ _ p q).trans rfl
  · exact broadcastTo_1b_ab_apply r _ p q

/-- The body's activation at an entry: selecting y where it is above zero and the slope word times y elsewhere is
    the leaky rectifier of y. -/
theorem act_apply (y : FVec Ideal S2000x128 .f32) (i : S2000x128.Idx) :
    select (cmpf .ogt y (broadcast S2000x128 (Scalar.ofBits .f32 0x00000000#32))) y
        (mulf (broadcast S2000x128 (Scalar.ofBits .f32 0x3C23D70A#32)) y) i
      = Cert.Layer.leaky (y i) := by
  show Scalar.select (Ideal.cmp .ogt (y i) (Ideal.ofBits .f32 0x00000000#32)) (y i)
      (Ideal.ofBits .f32 0x3C23D70A#32 * y i) = _
  rw [Ideal.ofBits_zero_f32]
  exact Cert.Layer.select_gt (y i)

/-- The stored value at row p, feature q of the block: the two branches of the layer, over the block of the node
    table and the block of the neighbourhood sums. -/
theorem pay_apply (x0 x1 : FVec Ideal S2000x128 .f32) (w1 w2 : FVec Ideal S128x128 .bf16)
    (r1 r2 : FVec Ideal S1x128 .f32) (p : Fin 2000) (q : Fin 128) :
    k0_pay1 (F := Ideal) x0 x1 w1 w2 r1 r2 (ix2 p q)
      = Cert.Layer.branch (fun j => x0 j + x1 j) w1 (fun q => r1 (ix2 (0 : Fin 1) q)) p q
        + Cert.Layer.branch (fun j => x0 j * x1 j) w2 (fun q => r2 (ix2 (0 : Fin 1) q)) p q := by
  unfold k0_pay1
  rw [shapeCast_self x1]
  rw [addf_apply, act_apply, act_apply, lin_apply, lin_apply]
  rfl

end Cert.KernelIdeal.Body

end
-- ==== Proof.KernelHost.lean ====
/-
  What the pipelined region finds in the arrays the host wrote before it.

  Before the region the host computes the neighbourhood sums from the node table, the edge weights and the two
  index vectors; narrows the two weight matrices to half width, which on the extended reals is the identity; and
  re-lays each bias vector of 128 entries as one row. So the region finds the neighbourhood sums as `aggregate` of the
  launch arrays, each weight matrix as the argument matrix, and each bias row at (0, q) as the bias vector at q.
-/
import proofs.«160243_j3582002725211_1_alg».proof.Proof.Gen.KernelIdeal.Frame
import proofs.«160243_j3582002725211_1_alg».proof.Proof.Spec
import Idealize.ShloMosaic.Lib.StableHlo.Run
import Idealize.ShloMosaic.Lib.ValueLayout
import Idealize.ShloMosaic.Lib.Pipeline.Value

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The neighbourhood sums the region finds are `aggregate` of the node table, the edge weights, the source
    indices and the destination indices as launched. -/
theorem side_eq (c : Dev nD) :
    @Eq (S100000x128.Idx → EReal) (V m c main_v12)
      (Cert.Layer.aggregate (F := Ideal) gather_S100000x128_S1600000x1_S1600000x128_1_0_n_n_0_1_1128
          scatter_S100000x128_S1600000x1_S1600000x128_1_0_0_1
          bcast_S_S1600000 bcast_S1600000_S1600000x1_0 bcast_S1600000x1_S1600000x128_0_1 bcast_S_S100000x128
          (m ((c : Thread nD τ).loc main_arg0)) (m ((c : Thread nD τ).loc main_arg1))
          (m ((c : Thread nD τ).loc main_arg6)) (m ((c : Thread nD τ).loc main_arg7))) := by
  dsimp only [Gen.V, Gen.hostOps0]
  after_results
  rfl

/-- The first weight matrix, narrowed, is the argument matrix. -/
theorem w1_eq (c : Dev nD) :
    @Eq (S128x128.Idx → EReal) (V m c main_v13) (m ((c : Thread nD τ).loc main_arg2)) := by
  dsimp only [Gen.V, Gen.hostOps0]
  after_results
  rfl

/-- The second weight matrix, narrowed, is the argument matrix. -/
theorem w2_eq (c : Dev nD) :
    @Eq (S128x128.Idx → EReal) (V m c main_v14) (m ((c : Thread nD τ).loc main_arg4)) := by
  dsimp only [Gen.V, Gen.hostOps0]
  after_results
  rfl

/-- The first bias row at (0, q) is the bias vector at q. -/
theorem b1_apply (c : Dev nD) (q : Fin 128) :
    @Eq EReal (V m c main_v15 (ix2 (0 : Fin 1) q)) (m ((c : Thread nD τ).loc main_arg3) (ix1 q)) := by
  have e : @Eq (S1x128.Idx → EReal) (V m c main_v15)
      (shapeCast S1x128 (m ((c : Thread nD τ).loc main_arg3)) shapeCasts_S128_S1x128) := by
    dsimp only [Gen.V, Gen.hostOps0]
    after_results
    rfl
  exact (congrFun e _).trans (shapeCast_a_1a_apply _ _ (0 : Fin 1) q)

/-- The second bias row at (0, q) is the bias vector at q. -/
theorem b2_apply (c : Dev nD) (q : Fin 128) :
    @Eq EReal (V m c main_v16 (ix2 (0 : Fin 1) q)) (m ((c : Thread nD τ).loc main_arg5) (ix1 q)) := by
  have e : @Eq (S1x128.Idx → EReal) (V m c main_v16)
      (shapeCast S1x128 (m ((c : Thread nD τ).loc main_arg5)) shapeCasts_S128_S1x128) := by
    dsimp only [Gen.V, Gen.hostOps0]
    after_results
    rfl
  exact (congrFun e _).trans (shapeCast_a_1a_apply _ _ (0 : Fin 1) q)

end Cert.KernelIdeal.Entry

end
-- ==== Proof.KernelValue.lean ====
/-
  The kernel's result array as one function of the argument arrays.

  The grid has 50 points; point t works on rows 2000 t … 2000 t + 1999 of the node table and of the neighbourhood
  sums, on the whole weight matrices and bias rows, and writes rows 2000 t … 2000 t + 1999 of the result. Row p of
  block t is row 2000 t + p of the table, so what point t writes is block t of the layer computed on the whole
  arrays; the 50 blocks cover all 100000 rows (row r lies in block r / 2000), so the result array is the layer.
-/
import proofs.«160243_j3582002725211_1_alg».proof.Proof.Gen.KernelIdeal.Value
import proofs.«160243_j3582002725211_1_alg».proof.Proof.KernelPayload
import proofs.«160243_j3582002725211_1_alg».proof.Proof.KernelHost

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

attribute [local irreducible] Host.scatterAdd Host.gather

/-- Every access of the body starts at the origin of its block. -/
theorem origin : (![0, 0] : Fin 2 → Nat) = fun _ => 0 := funext fun a => by fin_cases a <;> rfl

/-- The block index of every window at every grid point: the node table, the neighbourhood sums and the result move
    down one block of rows per point; the weight matrices and the bias rows stay at block (0, 0). -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row p of block t is row 2000 t + p of the table. -/
def row (t : Fin cfg0.N) (p : Fin 2000) : Fin 100000 :=
  ⟨t.val * 2000 + p.val, by
    have ht : t.val < 50 := lt_of_lt_of_eq t.isLt N_0
    have hp := p.isLt
    omega⟩

/-- The layer on the whole arrays: the node table, the two weight matrices and the two bias vectors as launched, and
    the neighbourhood sums as the region finds them. -/
def whole (c : Dev nD) : S100000x128.Idx → EReal :=
  Cert.Layer.layer (m ((c : Thread nD τ).loc main_arg0)) (V m c main_v12)
    (m ((c : Thread nD τ).loc main_arg2)) (m ((c : Thread nD τ).loc main_arg3))
    (m ((c : Thread nD τ).loc main_arg4)) (m ((c : Thread nD τ).loc main_arg5))

/-- The block of the node table at point t, at (p, k), is the table at (2000 t + p, k). -/
theorem table_block (c : Dev nD) (t : Fin cfg0.N) (p : Fin 2000) (k : Fin 128) :
    iblk m c 0 t (ix2 p k) = m ((c : Thread nD τ).loc main_arg0) (ix2 (row t p) k) := by
  obtain ⟨e0, e1, -⟩ := block_index t
  show V m c main_arg0 (((cfg0.win 0).blk t).view.emb (ix2 p k)) = _
  rw [V_main_arg0]
  refine congrArg (m ((c : Thread nD τ).loc main_arg0)) (funext fun a => Fin.ext ?_)
  match a with
  | ⟨0, _⟩ => show win0_0.index t (0 : Fin 2) * 2000 + 1 * p.val = t.val * 2000 + p.val; omega
  | ⟨1, _⟩ => show win0_0.index t (1 : Fin 2) * 128 + 1 * k.val = k.val; omega

/-- Entry (p, k) of the block of the neighbourhood sums at point t sits at (2000 t + p, k) of the array. -/
theorem side_place (t : Fin cfg0.N) (p : Fin 2000) (k : Fin 128) :
    ((cfg0.win 1).blk t).view.emb (ix2 p k) = ix2 (row t p) k := by
  obtain ⟨-, -, e0, e1, -⟩ := block_index t
  refine funext fun a => Fin.ext ?_
  match a with
  | ⟨0, _⟩ => show win0_1.index t (0 : Fin 2) * 2000 + 1 * p.val = t.val * 2000 + p.val; omega
  | ⟨1, _⟩ => show win0_1.index t (1 : Fin 2) * 128 + 1 * k.val = k.val; omega

/-- The block of the neighbourhood sums at point t, at (p, k), is the sums at (2000 t + p, k). -/
theorem side_block (c : Dev nD) (t : Fin cfg0.N) (p : Fin 2000) (k : Fin 128) :
    iblk m c 1 t (ix2 p k) = V m c main_v12 (ix2 (row t p) k) := by
  have h : iblk m c 1 t = ((cfg0.win 1).blk t).view.read (Elt Ideal) (V m c main_v12) := rfl
  rw [h, View.read_apply, side_place, cast_eq]

/-- Entry (k, q) of the one block of the first weight matrix sits at (k, q) of the matrix. -/
theorem w1_place (t : Fin cfg0.N) (k q : Fin 128) :
    ((cfg0.win 2).blk t).view.emb (ix2 k q) = ix2 k q := by
  obtain ⟨-, -, -, -, e0, e1, -⟩ := block_index t
  refine funext fun a => Fin.ext ?_
  match a with
  | ⟨0, _⟩ => show win0_2.index t (0 : Fin 2) * 128 + 1 * k.val = k.val; omega
  | ⟨1, _⟩ => show win0_2.index t (1 : Fin 2) * 128 + 1 * q.val = q.val; omega

/-- The one block of the first weight matrix is the argument matrix. -/
theorem w1_block (c : Dev nD) (t : Fin cfg0.N) (k q : Fin 128) :
    iblk m c 2 t (ix2 k q) = m ((c : Thread nD τ).loc main_arg2) (ix2 k q) := by
  have h : iblk m c 2 t = ((cfg0.win 2).blk t).view.read (Elt Ideal) (V m c main_v13) := rfl
  rw [h, View.read_apply, w1_place, cast_eq]
  exact congrFun (Entry.w1_eq m c) (ix2 k q)

/-- Entry (k, q) of the one block of the second weight matrix sits at (k, q) of the matrix. -/
theorem w2_place (t : Fin cfg0.N) (k q : Fin 128) :
    ((cfg0.win 4).blk t).view.emb (ix2 k q) = ix2 k q := by
  obtain ⟨-, -, -, -, -, -, -, -, e0, e1, -⟩ := block_index t
  refine funext fun a => Fin.ext ?_
  match a with
  | ⟨0, _⟩ => show win0_4.index t (0 : Fin 2) * 128 + 1 * k.val = k.val; omega
  | ⟨1, _⟩ => show win0_4.index t (1 : Fin 2) * 128 + 1 * q.val = q.val; omega

/-- The one block of the second weight matrix is the argument matrix. -/
theorem w2_block (c : Dev nD) (t : Fin cfg0.N) (k q : Fin 128) :
    iblk m c 4 t (ix2 k q) = m ((c : Thread nD τ).loc main_arg4) (ix2 k q) := by
  have h : iblk m c 4 t = ((cfg0.win 4).blk t).view.read (Elt Ideal) (V m c main_v14) := rfl
  rw [h, View.read_apply, w2_place, cast_eq]
  exact congrFun (Entry.w2_eq m c) (ix2 k q)

/-- Entry (0, q) of the one block of the first bias row sits at (0, q) of the row. -/
theorem b1_place (t : Fin cfg0.N) (q : Fin 128) :
    ((cfg0.win 3).blk t).view.emb (ix2 (0 : Fin 1) q) = ix2 (0 : Fin 1) q := by
  obtain ⟨-, -, -, -, -, -, e0, e1, -⟩ := block_index t
  refine funext fun a => Fin.ext ?_
  match a with
  | ⟨0, _⟩ => show win0_3.index t (0 : Fin 2) * 1 + 1 * 0 = 0; omega
  | ⟨1, _⟩ => show win0_3.index t (1 : Fin 2) * 128 + 1 * q.val = q.val; omega

/-- The one block of the first bias row, at (0, q), is the bias vector at q. -/
theorem b1_block (c : Dev nD) (t : Fin cfg0.N) (q : Fin 128) :
    iblk m c 3 t (ix2 (0 : Fin 1) q) = m ((c : Thread nD τ).loc main_arg3) (ix1 q) := by
  have h : iblk m c 3 t = ((cfg0.win 3).blk t).view.read (Elt Ideal) (V m c main_v15) := rfl
  rw [h, View.read_apply, b1_place, cast_eq]
  exact Entry.b1_apply m c q

/-- Entry (0, q) of the one block of the second bias row sits at (0, q) of the row. -/
theorem b2_place (t : Fin cfg0.N) (q : Fin 128) :
    ((cfg0.win 5).blk t).view.emb (ix2 (0 : Fin 1) q) = ix2 (0 : Fin 1) q := by
  obtain ⟨-, -, -, -, -, -, -, -, -, -, e0, e1, -⟩ := block_index t
  refine funext fun a => Fin.ext ?_
  match a with
  | ⟨0, _⟩ => show win0_5.index t (0 : Fin 2) * 1 + 1 * 0 = 0; omega
  | ⟨1, _⟩ => show win0_5.index t (1 : Fin 2) * 128 + 1 * q.val = q.val; omega

/-- The one block of the second bias row, at (0, q), is the bias vector at q. -/
theorem b2_block (c : Dev nD) (t : Fin cfg0.N) (q : Fin 128) :
    iblk m c 5 t (ix2 (0 : Fin 1) q) = m ((c : Thread nD τ).loc main_arg5) (ix1 q) := by
  have h : iblk m c 5 t = ((cfg0.win 5).blk t).view.read (Elt Ideal) (V m c main_v16) := rfl
  rw [h, View.read_apply, b2_place, cast_eq]
  exact Entry.b2_apply m c q

/-- Entry (p, q) of the result's block at point t is entry (2000 t + p, q) of the result. -/
theorem result_block (t : Fin cfg0.N) (p : Fin 2000) (q : Fin 128) :
    ((cfg0.win 6).blk t).view.emb (ix2 p q) = ix2 (row t p) q := by
  obtain ⟨-, -, -, -, -, -, -, -, -, -, -, -, e0, e1⟩ := block_index t
  refine funext fun a => Fin.ext ?_
  match a with
  | ⟨0, _⟩ => show win0_6.index t (0 : Fin 2) * 2000 + 1 * p.val = t.val * 2000 + p.val; omega
  | ⟨1, _⟩ => show win0_6.index t (1 : Fin 2) * 128 + 1 * q.val = q.val; omega

/-- What the body stores at an entry of its block at point t is the layer on the whole arrays at the entry's place
    in the result. -/
theorem point_eq (c : Dev nD) (t : Fin cfg0.N) (j : S2000x128.Idx) :
    k0_pay1 (F := Ideal) (iblk m c 0 t) (iblk m c 1 t) (iblk m c 2 t) (iblk m c 4 t) (iblk m c 3 t) (iblk m c 5 t) j
      = whole m c (((cfg0.win 6).blk t).view.emb j) := by
  obtain ⟨p, q, rfl⟩ : ∃ (p : Fin 2000) (q : Fin 128), j = ix2 p q := ⟨j 0, j 1, eq_ix2 j⟩
  rw [result_block t p q]
  refine (Body.pay_apply (iblk m c 0 t) (iblk m c 1 t) (iblk m c 2 t) (iblk m c 4 t) (iblk m c 3 t) (iblk m c 5 t)
    p q).trans ?_
  unfold whole
  rw [Cert.Layer.layer_apply]
  unfold Cert.Layer.branch
  simp only [table_block, side_block, w1_block, w2_block, b1_block, b2_block]

/-- What point t writes back is block t of the layer on the whole arrays. -/
theorem flushed_eq (c : Dev nD) (t : Fin cfg0.N) :
    (dats m 0 c).flushed 6 t = ((cfg0.win 6).blk t).view.read (Elt Ideal) (whole m c) := by
  rw [Value.flushed6]
  unfold Gen.out0_6
  rw [View.canon_unit_zero origin]
  simp only [View.ld_unit_zero (S := S2000x128) origin, View.ld_unit_zero (S := S128x128) origin,
    View.ld_unit_zero (S := S1x128) origin]
  funext j
  rw [View.read_apply, cast_eq]
  exact point_eq m c t j

/-- An index of the result lies in point t's block iff each coordinate lies in the block's range on its axis. -/
theorem mem_block (t : Fin cfg0.N) (i : S100000x128.Idx) :
    i ∈ ((cfg0.win 6).blk t).view.set ↔ ∀ a : Fin 2, win0_6.index t a * S2000x128.size a ≤ (i a).val
      ∧ (i a).val < win0_6.index t a * S2000x128.size a + S2000x128.size a := by
  show i ∈ ((View.whole main_v17).slice (win0_6.rect t)).set ↔ _
  rw [View.set_slice_whole, Rect.mem_set_unit]
  exact Iff.rfl

/-- Every index of the result lies in some point's block: row r lies in block r / 2000. -/
theorem cover (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 50 := N_0
  have hlt : (i 0).val / 2000 < cfg0.N := by rw [hN]; omega
  obtain ⟨-, -, -, -, -, -, -, -, -, -, -, -, e0, e1⟩ := block_index ⟨(i 0).val / 2000, hlt⟩
  have e0' : win0_6.index ⟨(i 0).val / 2000, hlt⟩ (0 : Fin 2) = (i 0).val / 2000 := e0
  refine ⟨⟨(i 0).val / 2000, hlt⟩, flush0_6 _, ?_⟩
  rw [mem_block]
  intro a
  match a with
  | ⟨0, _⟩ =>
    show win0_6.index ⟨(i 0).val / 2000, hlt⟩ (0 : Fin 2) * 2000 ≤ (i 0).val
      ∧ (i 0).val < win0_6.index ⟨(i 0).val / 2000, hlt⟩ (0 : Fin 2) * 2000 + 2000
    omega
  | ⟨1, _⟩ =>
    show win0_6.index ⟨(i 0).val / 2000, hlt⟩ (1 : Fin 2) * 128 ≤ (i 1).val
      ∧ (i 1).val < win0_6.index ⟨(i 0).val / 2000, hlt⟩ (1 : Fin 2) * 128 + 128
    omega

/-- The result array after the run is the layer on the whole arrays. -/
theorem final (c : Dev nD) : (dats m 0 c).arrAt 6 cfg0.N = whole m c :=
  (dats m 0 c).arrAt_eq_of_cover 6 (whole m c) (fun t _ => flushed_eq m c t) cover

/-- The layer on the whole arrays, with the neighbourhood sums spelt as `aggregate` of the launch arrays. -/
theorem whole_eq (c : Dev nD) :
    whole m c = Cert.Layer.layer (m ((c : Thread nD τ).loc main_arg0))
      (Cert.Layer.aggregate (F := Ideal) gather_S100000x128_S1600000x1_S1600000x128_1_0_n_n_0_1_1128
        scatter_S100000x128_S1600000x1_S1600000x128_1_0_0_1
        bcast_S_S1600000 bcast_S1600000_S1600000x1_0 bcast_S1600000x1_S1600000x128_0_1 bcast_S_S100000x128
        (m ((c : Thread nD τ).loc main_arg0)) (m ((c : Thread nD τ).loc main_arg1))
        (m ((c : Thread nD τ).loc main_arg6)) (m ((c : Thread nD τ).loc main_arg7)))
      (m ((c : Thread nD τ).loc main_arg2)) (m ((c : Thread nD τ).loc main_arg3))
      (m ((c : Thread nD τ).loc main_arg4)) (m ((c : Thread nD τ).loc main_arg5)) := by
  unfold whole
  rw [Entry.side_eq m c]

/-- Every weakly fair execution of the kernel's program terminates with the result array at the layer of the
    argument arrays and the argument arrays unchanged. -/
theorem run : θ_run defs (onTc (τ := τ) (main (F := Ideal))) ⟨m, fun _ => 0, ρ⟩ fun r => ∀ c : Dev nD,
      r.2.mem ((c : Thread nD τ).loc main_v17) = Cert.Layer.layer (m ((c : Thread nD τ).loc main_arg0))
        (Cert.Layer.aggregate (F := Ideal) gather_S100000x128_S1600000x1_S1600000x128_1_0_n_n_0_1_1128
          scatter_S100000x128_S1600000x1_S1600000x128_1_0_0_1
          bcast_S_S1600000 bcast_S1600000_S1600000x1_0 bcast_S1600000x1_S1600000x128_0_1 bcast_S_S100000x128
          (m ((c : Thread nD τ).loc main_arg0)) (m ((c : Thread nD τ).loc main_arg1))
          (m ((c : Thread nD τ).loc main_arg6)) (m ((c : Thread nD τ).loc main_arg7)))
        (m ((c : Thread nD τ).loc main_arg2)) (m ((c : Thread nD τ).loc main_arg3))
        (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨((h c).1.trans (final m c)).trans (whole_eq m c), (h c).2⟩)
    (Value.run_blocks m ρ)

end Cert.KernelIdeal.Whole

end
-- ==== Proof.RefRun.lean ====
/-
  The reference program's run, read back as one term of the argument arrays.

  The reference's entry function is a straight line of host operations once its two calls of the rectifier are
  replaced by the rectifier's own operations (a zero, its broadcast, the weak comparison with it, the slope's
  copy and broadcast, the product, and the selection made by the inner function), each written over the buffers
  that call names. Listed in order, the line has forty-three operations. Every weakly fair execution of it
  terminates, and each buffer then holds the operations' composite over the launch contents: at the result
  buffer that composite is `out` of the eight argument arrays, and each argument buffer is unchanged.

  `out` is stated through three small functions: `pre` (a rows-by-columns product plus a bias row copied down
  the rows), `rect` (the rectifier as the program spells it: select by the weak comparison with a broadcast
  zero between the value and the broadcast slope times the value) and the neighbourhood sum of the
  specification, which stands here for the first sixteen operations as one term.
-/
import proofs.«160243_j3582002725211_1_alg».proof.Proof.Gen.ReferenceIdeal
import proofs.«160243_j3582002725211_1_alg».proof.Proof.Spec
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The entry function's forty-three operations in order, the two calls of the rectifier replaced by the
    rectifier's seven operations over the buffers each call names. -/
abbrev ops : List (HloOp τ sig (Elt F)) :=
  [ StableHlo.nullary main_c (constantI S_ 32 0#32),
    StableHlo.unary main_c main_v0 (broadcastInDim S1600000 ![] bcast_S_S1600000 : (⟨S_, .i32⟩ : BufTy).Contents (Elt F) → (⟨S1600000, .i32⟩ : BufTy).Contents (Elt F)),
    StableHlo.binary main_arg6 main_v0 main_v1 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v2 (broadcastInDim S1600000 ![] bcast_S_S1600000 : (⟨S_, .i32⟩ : BufTy).Contents (Elt F) → (⟨S1600000, .i32⟩ : BufTy).Contents (Elt F)),
    StableHlo.binary main_arg6 main_v2 main_v3 (addi : (⟨S1600000, .i32⟩ : BufTy).Contents (Elt F) → (⟨S1600000, .i32⟩ : BufTy).Contents (Elt F) → (⟨S1600000, .i32⟩ : BufTy).Contents (Elt F)),
    StableHlo.ternary main_v1 main_v3 main_arg6 main_v4 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v4 main_v5 (broadcastInDim S1600000x1 ![0] bcast_S1600000_S1600000x1_0 : (⟨S1600000, .i32⟩ : BufTy).Contents (Elt F) → (⟨S1600000x1, .i32⟩ : BufTy).Contents (Elt F)),
    StableHlo.binary main_arg0 main_v5 main_v6 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.unary main_arg1 main_v7 (broadcastInDim S1600000x1 ![0] bcast_S1600000_S1600000x1_0 : (⟨S1600000, .f32⟩ : BufTy).Contents (Elt F) → (⟨S1600000x1, .f32⟩ : BufTy).Contents (Elt F)),
    StableHlo.unary main_v7 main_v8 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v6 main_v8 main_v9 (mulf : (⟨S1600000x128, .f32⟩ : BufTy).Contents (Elt F) → (⟨S1600000x128, .f32⟩ : BufTy).Contents (Elt F) → (⟨S1600000x128, .f32⟩ : BufTy).Contents (Elt F)),
    StableHlo.nullary main_cst (constant S_ .f32 0x00000000#32),
    StableHlo.unary main_cst main_v10 (broadcastInDim S100000x128 ![] bcast_S_S100000x128 : (⟨S_, .f32⟩ : BufTy).Contents (Elt F) → (⟨S100000x128, .f32⟩ : BufTy).Contents (Elt F)),
    StableHlo.unary main_arg7 main_v11 (broadcastInDim S1600000x1 ![0] bcast_S1600000_S1600000x1_0 : (⟨S1600000, .i32⟩ : BufTy).Contents (Elt F) → (⟨S1600000x1, .i32⟩ : BufTy).Contents (Elt F)),
    StableHlo.ternary main_v10 main_v11 main_v9 main_v12 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_arg0 main_v12 main_v13 (addf : (⟨S100000x128, .f32⟩ : BufTy).Contents (Elt F) → (⟨S100000x128, .f32⟩ : BufTy).Contents (Elt F) → (⟨S100000x128, .f32⟩ : BufTy).Contents (Elt F)),
    StableHlo.binary main_v13 main_arg2 main_v14 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg3 main_v15 (broadcastInDim S1x128 ![1] bcast_S128_S1x128_1 : (⟨S128, .f32⟩ : BufTy).Contents (Elt F) → (⟨S1x128, .f32⟩ : BufTy).Contents (Elt F)),
    StableHlo.unary main_v15 main_v16 (broadcastInDim S100000x128 ![0, 1] bcast_S1x128_S100000x128_0_1 : (⟨S1x128, .f32⟩ : BufTy).Contents (Elt F) → (⟨S100000x128, .f32⟩ : BufTy).Contents (Elt F)),
    StableHlo.binary main_v14 main_v16 main_v17 (addf : (⟨S100000x128, .f32⟩ : BufTy).Contents (Elt F) → (⟨S100000x128, .f32⟩ : BufTy).Contents (Elt F) → (⟨S100000x128, .f32⟩ : BufTy).Contents (Elt F)),
    StableHlo.nullary main_cst_1 (constant S_ .f32 0x3C23D70A#32),
    StableHlo.TRef.nullary main_call0.cst (constant S_ .f32 0x00000000#32),
    StableHlo.TRef.unary main_call0.cst main_call0.v0 (broadcastInDim S100000x128 ![] bcast_S_S100000x128),
    StableHlo.TRef.binary (.of main_v17) main_call0.v0 main_call0.v1 (cmpf .oge),
    StableHlo.TRef.unary (.of main_cst_1) main_call0.v2 id,
    StableHlo.TRef.unary main_call0.v2 main_call0.v3 (broadcastInDim S100000x128 ![] bcast_S_S100000x128),
    StableHlo.TRef.binary main_call0.v3 (.of main_v17) main_call0.v4 mulf,
    StableHlo.TRef.ternary main_call0.v1 (.of main_v17) main_call0.v4 main_call0.call0.v0 select,
    StableHlo.binary main_arg0 main_v12 main_v19 (mulf : (⟨S100000x128, .f32⟩ : BufTy).Contents (Elt F) → (⟨S100000x128, .f32⟩ : BufTy).Contents (Elt F) → (⟨S100000x128, .f32⟩ : BufTy).Contents (Elt F)),
    StableHlo.binary main_v19 main_arg4 main_v20 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg5 main_v21 (broadcastInDim S1x128 ![1] bcast_S128_S1x128_1 : (⟨S128, .f32⟩ : BufTy).Contents (Elt F) → (⟨S1x128, .f32⟩ : BufTy).Contents (Elt F)),
    StableHlo.unary main_v21 main_v22 (broadcastInDim S100000x128 ![0, 1] bcast_S1x128_S100000x128_0_1 : (⟨S1x128, .f32⟩ : BufTy).Contents (Elt F) → (⟨S100000x128, .f32⟩ : BufTy).Contents (Elt F)),
    StableHlo.binary main_v20 main_v22 main_v23 (addf : (⟨S100000x128, .f32⟩ : BufTy).Contents (Elt F) → (⟨S100000x128, .f32⟩ : BufTy).Contents (Elt F) → (⟨S100000x128, .f32⟩ : BufTy).Contents (Elt F)),
    StableHlo.nullary main_cst_2 (constant S_ .f32 0x3C23D70A#32),
    StableHlo.TRef.nullary main_call1.cst (constant S_ .f32 0x00000000#32),
    StableHlo.TRef.unary main_call1.cst main_call1.v0 (broadcastInDim S100000x128 ![] bcast_S_S100000x128),
    StableHlo.TRef.binary (.of main_v23) main_call1.v0 main_call1.v1 (cmpf .oge),
    StableHlo.TRef.unary (.of main_cst_2) main_call1.v2 id,
    StableHlo.TRef.unary main_call1.v2 main_call1.v3 (broadcastInDim S100000x128 ![] bcast_S_S100000x128),
    StableHlo.TRef.binary main_call1.v3 (.of main_v23) main_call1.v4 mulf,
    StableHlo.TRef.ternary main_call1.v1 (.of main_v23) main_call1.v4 main_call1.call0.v0 select,
    StableHlo.binary main_v18 main_v24 main_v25 (addf : (⟨S100000x128, .f32⟩ : BufTy).Contents (Elt F) → (⟨S100000x128, .f32⟩ : BufTy).Contents (Elt F) → (⟨S100000x128, .f32⟩ : BufTy).Contents (Elt F)) ]

set_option maxRecDepth 1024 in
/-- The entry function is that straight line: with the rectifier's and the inner function's definitions unfolded at the
    two calls, both sides are one chain of steps once sequencing is reassociated. -/
theorem main_eq (c : Dev nD) : main (F := F) c = seq ops := by
  simp only [main, fn_leaky_relu.body, fn_where.body, seq, bind_assoc, pure_bind]

/-- A linear map on the host: the rows-by-columns product of `x` with `W`, plus the bias `b` as a row copied
    down all the rows. -/
def pre (x : FVec F S100000x128 .f32) (W : FVec F S128x128 .f32) (b : FVec F S128 .f32) : FVec F S100000x128 .f32 :=
  addf (Host.dotGeneral dot_S100000x128_S128x128_S100000x128_1_0_0_1_n_n none x W)
    (broadcastInDim S100000x128 ![0, 1] bcast_S1x128_S100000x128_0_1 (broadcastInDim S1x128 ![1] bcast_S128_S1x128_1 b))

/-- The rectifier as the program spells it: where `y` is at least the broadcast zero, `y`; elsewhere the
    broadcast slope word times `y`. -/
def rect (y : FVec F S100000x128 .f32) : FVec F S100000x128 .f32 :=
  select (cmpf .oge y (broadcastInDim S100000x128 ![] bcast_S_S100000x128 (constant S_ .f32 0x00000000#32))) y
    (mulf (broadcastInDim S100000x128 ![] bcast_S_S100000x128 (constant S_ .f32 0x3C23D70A#32)) y)

/-- The neighbourhood sum of the specification at this program's dimension records. -/
def side (a0 : FVec F S100000x128 .f32) (a1 : FVec F S1600000 .f32) (a6 a7 : IVec S1600000 32) : FVec F S100000x128 .f32 :=
  Cert.Layer.aggregate gather_S100000x128_S1600000x1_S1600000x128_1_0_n_n_0_1_1128 scatter_S100000x128_S1600000x1_S1600000x128_1_0_0_1
    bcast_S_S1600000 bcast_S1600000_S1600000x1_0 bcast_S1600000x1_S1600000x128_0_1 bcast_S_S100000x128 a0 a1 a6 a7

/-- What the reference computes from its eight arguments' contents: the rectified linear map of ego + side plus
    the rectified linear map of ego · side. -/
def out (a0 : FVec F S100000x128 .f32) (a1 : FVec F S1600000 .f32) (a2 : FVec F S128x128 .f32) (a3 : FVec F S128 .f32)
    (a4 : FVec F S128x128 .f32) (a5 : FVec F S128 .f32) (a6 a7 : IVec S1600000 32) : FVec F S100000x128 .f32 :=
  addf (rect (pre (addf a0 (side a0 a1 a6 a7)) a2 a3)) (rect (pre (mulf a0 (side a0 a1 a6 a7)) a4 a5))

attribute [local irreducible] Host.gather Host.scatterAdd in
set_option maxRecDepth 8192 in
/-- The line's composite at the result buffer is `out` of the arguments' contents: each operation's result is
    its function's value at the buffer it writes and what was there at any other, and the typed references'
    transports are the identity at these literal references. The equation holds whatever the gather and the
    scatter-add compute: both sides apply them to the same arrays. -/
theorem out_eq (V : Valuation τ sig (Elt F)) :
    after ops V (main_v25 : DevRef τ sig)
      = out (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) := by
  after_results_simp
  rfl

/-- The line writes no argument: argument 0's buffer ends as it began. -/
theorem arg0_eq (V : Valuation τ sig (Elt F)) :
    after ops V (main_arg0 : DevRef τ sig) = V (main_arg0 : DevRef τ sig) := by
  after_results_simp

/-- The line writes no argument: argument 1's buffer ends as it began. -/
theorem arg1_eq (V : Valuation τ sig (Elt F)) :
    after ops V (main_arg1 : DevRef τ sig) = V (main_arg1 : DevRef τ sig) := by
  after_results_simp

/-- The line writes no argument: argument 2's buffer ends as it began. -/
theorem arg2_eq (V : Valuation τ sig (Elt F)) :
    after ops V (main_arg2 : DevRef τ sig) = V (main_arg2 : DevRef τ sig) := by
  after_results_simp

/-- The line writes no argument: argument 3's buffer ends as it began. -/
theorem arg3_eq (V : Valuation τ sig (Elt F)) :
    after ops V (main_arg3 : DevRef τ sig) = V (main_arg3 : DevRef τ sig) := by
  after_results_simp

/-- The line writes no argument: argument 4's buffer ends as it began. -/
theorem arg4_eq (V : Valuation τ sig (Elt F)) :
    after ops V (main_arg4 : DevRef τ sig) = V (main_arg4 : DevRef τ sig) := by
  after_results_simp

/-- The line writes no argument: argument 5's buffer ends as it began. -/
theorem arg5_eq (V : Valuation τ sig (Elt F)) :
    after ops V (main_arg5 : DevRef τ sig) = V (main_arg5 : DevRef τ sig) := by
  after_results_simp

/-- The line writes no argument: argument 6's buffer ends as it began. -/
theorem arg6_eq (V : Valuation τ sig (Elt F)) :
    after ops V (main_arg6 : DevRef τ sig) = V (main_arg6 : DevRef τ sig) := by
  after_results_simp

/-- The line writes no argument: argument 7's buffer ends as it began. -/
theorem arg7_eq (V : Valuation τ sig (Elt F)) :
    after ops V (main_arg7 : DevRef τ sig) = V (main_arg7 : DevRef τ sig) := by
  after_results_simp

theorem scopedRefs_eq : (Finset.univ.filter fun b : Ref sig .tc => b.isScoped) = ∅ := by decide
theorem scopedSems_eq : (Finset.univ.filter fun sm : SemLoc sig => sm.isScoped .tc) = ∅ := by decide

/-- Every operation of the line touches buffers of the core only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., binary_bufs_sub ..,
    nullary_bufs_sub .., unary_bufs_sub .., unary_bufs_sub .., ternary_bufs_sub .., binary_bufs_sub .., binary_bufs_sub ..,
    unary_bufs_sub .., unary_bufs_sub .., binary_bufs_sub .., nullary_bufs_sub .., nullary_bufs_sub .., unary_bufs_sub ..,
    binary_bufs_sub .., unary_bufs_sub .., unary_bufs_sub .., binary_bufs_sub .., ternary_bufs_sub .., binary_bufs_sub ..,
    binary_bufs_sub .., unary_bufs_sub .., unary_bufs_sub .., binary_bufs_sub .., nullary_bufs_sub .., nullary_bufs_sub ..,
    unary_bufs_sub .., binary_bufs_sub .., unary_bufs_sub .., unary_bufs_sub .., binary_bufs_sub .., ternary_bufs_sub ..,
    binary_bufs_sub ..⟩

/-- At the compiled mesh, for any float values, from any memory with zero counters: every weakly fair execution
    of the entry function terminates, and every final state has each buffer at the line's composite over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.LibHostDot.lean ====
/-
  A plain rows-by-columns matrix product computed by the host, read at coordinates, over the extended reals.

  The left operand is contracted on its columns and the right on its rows, with no batch axis. At (p, q) the product
  is the sum over the shared axis of the products of row p of the left operand and column q of the right: nothing
  is rounded and no order of summation is left in it.
-/
import proofs.«160243_j3582002725211_1_alg».proof.Proof.LibPlainMatmul

noncomputable section

namespace Cert.LibHostDot

open Idealize.ShloMosaic Idealize.ShloMosaic.ValueIdx Cert.LibPlainMatmul
open scoped BigOperators

/-- A plain m × k by k × n host product reads, at (p, q), the sum over the shared axis of the products of row p of the
    left operand and column q of the right. -/
theorem dotGeneral_plain {m k n : Nat}
    (wf : DotDims.WF (⟨2, ![m, k]⟩ : Shape) ⟨2, ![k, n]⟩ ⟨2, ![m, n]⟩ [1] [0] [0] [1] [] [])
    {φ₁ φ₂ : FTy} (sched : HostSchedule) (l : FVec Ideal ⟨2, ![m, k]⟩ φ₁) (r : FVec Ideal ⟨2, ![k, n]⟩ φ₂)
    (p : Fin m) (q : Fin n) :
    FloatOps.dotGeneral (plainDims wf) none sched l r (ix2 p q) = ∑ c : Fin k, l (ix2 p c) * r (ix2 c q) := by
  rw [Ideal.dotGeneral_apply, ← Equiv.sum_comp (contrEquiv1 (plainDims wf) k rfl rfl).symm]
  refine Finset.sum_congr rfl fun c _ => ?_
  have hc := contrEquiv1_symm_val (plainDims wf) k rfl rfl c
  have el : (plainDims wf).lhsIdx (ix2 p q) ((contrEquiv1 (plainDims wf) k rfl rfl).symm c) = ix2 p c :=
    funext fun a => Fin.ext (by
      match a with
      | ⟨0, _⟩ => exact plain_lhs_row wf _ _
      | ⟨1, _⟩ => exact ((plainDims wf).lhsIdx_val_of_single rfl _ _).trans hc)
  have er : (plainDims wf).rhsIdx (ix2 p q) ((contrEquiv1 (plainDims wf) k rfl rfl).symm c) = ix2 c q :=
    funext fun a => Fin.ext (by
      match a with
      | ⟨0, _⟩ => exact ((plainDims wf).rhsIdx_val_of_single rfl _ _).trans hc
      | ⟨1, _⟩ => exact plain_rhs_col wf _ _)
  rw [el, er]

end Cert.LibHostDot

end
-- ==== Proof.RefValue.lean ====
/-
  The reference program's result is the layer of the specification.

  The run of the reference ends with its result buffer at a composite of host operations over the eight argument
  arrays. Read at node p and feature q over the extended reals, each of its two summands is the rectifier of a sum
  over the 128 input features plus a bias: the host's rows-by-columns product is the sum over the shared axis, the
  bias row copied down the rows reads the bias at q, a scalar broadcast reads the scalar everywhere, the constant
  zero word is zero, and the selection by the weak comparison with zero between a value and the slope times the
  value is the rectifier. The neighbourhood sum enters as an arbitrary table: the equation holds for any table in
  its place.
-/
import proofs.«160243_j3582002725211_1_alg».proof.Proof.RefRun
import proofs.«160243_j3582002725211_1_alg».proof.Proof.Spec
import proofs.«160243_j3582002725211_1_alg».proof.Proof.LibHostDot
import Idealize.ShloMosaic.Lib.Pipeline.Value

noncomputable section

namespace Cert.ReferenceIdeal.RefValue

open Cert.ReferenceIdeal Cert.ReferenceIdeal.Gen Cert.ReferenceIdeal.RefRun
open Idealize.ShloMosaic Idealize.ShloMosaic.TcCoe Idealize.SL.Sem Idealize.ShloMosaic.StableHlo Idealize.ShloMosaic.ValueIdx
open scoped BigOperators

/-- A scalar broadcast to the node table reads the scalar at every index. -/
theorem bcast_point_apply (x : FVec Ideal S_ .f32) (j : S100000x128.Idx) :
    broadcastInDim S100000x128 ![] bcast_S_S100000x128 x j = x ix0 :=
  broadcastInDim_apply _ _ x j ix0 (fun a => a.elim0)

/-- A bias vector made a row and copied down all the rows reads, at (p, q), the bias at q. -/
theorem bias_apply (b : FVec Ideal S128 .f32) (p : Fin 100000) (q : Fin 128) :
    broadcastInDim S100000x128 ![0, 1] bcast_S1x128_S100000x128_0_1 (broadcastInDim S1x128 ![1] bcast_S128_S1x128_1 b) (ix2 p q)
      = b (ix1 q) := by
  refine (broadcastInDim_apply _ _ _ (ix2 p q) (ix2 (0 : Fin 1) q) fun a => ?_).trans
    (broadcastInDim_apply _ _ b (ix2 (0 : Fin 1) q) (ix1 q) fun a => ?_)
  · match a with
    | ⟨0, _⟩ => rfl
    | ⟨1, _⟩ => rfl
  · match a with
    | ⟨0, _⟩ => rfl

/-- The host's linear map at (p, q): the sum over the 128 input features of x (p, k) · W (k, q), plus the bias
    at q. -/
theorem pre_apply (x : FVec Ideal S100000x128 .f32) (W : FVec Ideal S128x128 .f32) (b : FVec Ideal S128 .f32)
    (p : Fin 100000) (q : Fin 128) :
    pre x W b (ix2 p q) = ∑ k : Fin 128, x (ix2 p k) * W (ix2 k q) + b (ix1 q) := by
  unfold pre
  rw [addf_apply, bias_apply]
  simp only [Host.dotGeneral]
  exact congrArg (· + b (ix1 q)) (Cert.LibHostDot.dotGeneral_plain _ _ x W p q)

/-- The program's rectifier at an index is the rectifier of the specification at the value there. -/
theorem rect_apply (y : FVec Ideal S100000x128 .f32) (j : S100000x128.Idx) :
    rect y j = Cert.Layer.leaky (y j) := by
  unfold rect
  rw [select_apply, cmpf_apply, mulf_apply, bcast_point_apply, bcast_point_apply, constant_apply, constant_apply,
    Ideal.cmpf_def, Ideal.ofBits_zero_f32]
  exact Cert.Layer.select_ge (y j)

/-- One rectified linear map of the program at (p, q) is the branch of the specification. -/
theorem rect_pre_apply (x : FVec Ideal S100000x128 .f32) (W : FVec Ideal S128x128 .f32) (b : FVec Ideal S128 .f32)
    (p : Fin 100000) (q : Fin 128) :
    rect (pre x W b) (ix2 p q) = Cert.Layer.branch x W (fun q => b (ix1 q)) p q := by
  rw [rect_apply, pre_apply]
  rfl

/-- The sum of the two rectified linear maps, fed ego + s and ego · s, is the layer — for any table s. -/
theorem arms_eq_layer (a0 s : FVec Ideal S100000x128 .f32) (a2 : FVec Ideal S128x128 .f32) (a3 : FVec Ideal S128 .f32)
    (a4 : FVec Ideal S128x128 .f32) (a5 : FVec Ideal S128 .f32) :
    addf (rect (pre (addf a0 s) a2 a3)) (rect (pre (mulf a0 s) a4 a5)) = Cert.Layer.layer a0 s a2 a3 a4 a5 := by
  funext i
  obtain ⟨p, q, rfl⟩ : ∃ (p : Fin 100000) (q : Fin 128), i = ix2 p q := ⟨i 0, i 1, eq_ix2 i⟩
  rw [Cert.Layer.layer_apply, addf_apply, rect_pre_apply, rect_pre_apply]
  rfl

/-- What the reference computes from its arguments is the layer of ego and the neighbourhood sum. -/
theorem out_eq_layer (a0 : FVec Ideal S100000x128 .f32) (a1 : FVec Ideal S1600000 .f32) (a2 : FVec Ideal S128x128 .f32)
    (a3 : FVec Ideal S128 .f32) (a4 : FVec Ideal S128x128 .f32) (a5 : FVec Ideal S128 .f32) (a6 a7 : IVec S1600000 32) :
    out a0 a1 a2 a3 a4 a5 a6 a7 = Cert.Layer.layer a0 (side a0 a1 a6 a7) a2 a3 a4 a5 :=
  arms_eq_layer a0 (side a0 a1 a6 a7) a2 a3 a4 a5

/-- On every device, over the extended reals, from any memory with zero counters: every weakly fair execution of the
    reference terminates with its result buffer at the layer of the node table and the neighbourhood sum of the
    argument arrays, and the eight argument arrays unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
        r.2.mem ((c.tc : Thread nD τ).loc main_v25)
          = Cert.Layer.layer (m ((c.tc : Thread nD τ).loc main_arg0))
              (Cert.Layer.aggregate (F := Ideal) gather_S100000x128_S1600000x1_S1600000x128_1_0_n_n_0_1_1128 scatter_S100000x128_S1600000x1_S1600000x128_1_0_0_1
                bcast_S_S1600000 bcast_S1600000_S1600000x1_0 bcast_S1600000x1_S1600000x128_0_1 bcast_S_S100000x128
                (m ((c.tc : Thread nD τ).loc main_arg0)) (m ((c.tc : Thread nD τ).loc main_arg1))
                (m ((c.tc : Thread nD τ).loc main_arg6)) (m ((c.tc : Thread nD τ).loc main_arg7)))
              (m ((c.tc : Thread nD τ).loc main_arg2)) (m ((c.tc : Thread nD τ).loc main_arg3))
              (m ((c.tc : Thread nD τ).loc main_arg4)) (m ((c.tc : Thread nD τ).loc main_arg5))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7) :=
  (θ_run defs _ _).mono
    (fun _ h c => ⟨((h c main_v25).trans (RefRun.out_eq _)).trans (out_eq_layer _ _ _ _ _ _ _ _),
      (h c main_arg0).trans (RefRun.arg0_eq _),
      (h c main_arg1).trans (RefRun.arg1_eq _),
      (h c main_arg2).trans (RefRun.arg2_eq _),
      (h c main_arg3).trans (RefRun.arg3_eq _),
      (h c main_arg4).trans (RefRun.arg4_eq _),
      (h c main_arg5).trans (RefRun.arg5_eq _),
      (h c main_arg6).trans (RefRun.arg6_eq _),
      (h c main_arg7).trans (RefRun.arg7_eq _)⟩)
    (RefRun.run_main (F := Ideal) m ρ)

end Cert.ReferenceIdeal.RefValue

end
-- ==== Proof.lean ====
/-
  One graph layer, computed by a tiled kernel and by a plain reference, gives the same result on the extended reals.

  Both programs first form the neighbourhood sums: every edge carries the row of the node table at its source, scaled
  by the edge's weight, into the row of its destination. Both then return
      leaky ((ego + side) · W1 + b1) + leaky ((ego · side) · W2 + b2),
  the kernel block by block — 50 blocks of 2000 rows, the weight matrices narrowed to half width, the rectifier by a
  strict comparison with zero — and the reference on the whole arrays, the rectifier by a weak comparison. On the
  extended reals a narrowing is the identity, a matrix product is the sum over the shared axis however it is
  tiled, and the two rectifiers agree because at zero both arms are zero; the slope is the same word in both programs.
  The neighbourhood sums are the same composite of the same host operations applied to the same arrays. No step
  uses that the inputs are finite.

  The kernel's result array is the layer of the argument arrays (Proof/KernelValue.lean, over Proof/KernelPayload.lean
  and Proof/KernelHost.lean), the reference's result is the same layer (Proof/RefValue.lean, over Proof/RefRun.lean),
  and the layer itself is Proof/Spec.lean. The kernel's program was printed from its source with no rewrite, so there
  is nothing to preserve.
-/
import proofs.«160243_j3582002725211_1_alg».proof.Defs
import proofs.«160243_j3582002725211_1_alg».proof.Proof.Gen.Kernel
import proofs.«160243_j3582002725211_1_alg».proof.Proof.Gen.Kernel.Skeleton
import proofs.«160243_j3582002725211_1_alg».proof.Proof.Gen.Kernel.Launch
import proofs.«160243_j3582002725211_1_alg».proof.Proof.Gen.Kernel.Points
import proofs.«160243_j3582002725211_1_alg».proof.Proof.Gen.Kernel.Frame
import proofs.«160243_j3582002725211_1_alg».proof.Proof.Gen.KernelIdeal
import proofs.«160243_j3582002725211_1_alg».proof.Proof.Gen.KernelIdeal.Skeleton
import proofs.«160243_j3582002725211_1_alg».proof.Proof.Gen.KernelIdeal.Launch
import proofs.«160243_j3582002725211_1_alg».proof.Proof.Gen.KernelIdeal.Points
import proofs.«160243_j3582002725211_1_alg».proof.Proof.Gen.KernelIdeal.Frame
import proofs.«160243_j3582002725211_1_alg».proof.Proof.Gen.KernelIdeal.Value
import proofs.«160243_j3582002725211_1_alg».proof.Proof.Gen.ReferenceIdeal
import proofs.«160243_j3582002725211_1_alg».proof.Proof.Gen.Pre_finite_inputs
import proofs.«160243_j3582002725211_1_alg».proof.Proof.KernelValue
import proofs.«160243_j3582002725211_1_alg».proof.Proof.RefValue
import Idealize.ShloMosaic.Adequacy
import Idealize.ShloMosaic.Init

noncomputable section

namespace Cert.Proof

open Idealize.ShloMosaic Idealize.SL.Sem

/-- The kernel's program as printed runs to the end, faults nowhere and leaves its argument arrays as they were. -/
theorem frame_kernel : Cert.frame_Kernel := fun m ρ _ => Cert.Kernel.Gen.frame m ρ

/-- So does the kernel's program read over the extended reals. -/
theorem frame_kernel_ideal : Cert.frame_KernelIdeal := fun m ρ _ => Cert.KernelIdeal.Gen.frame m ρ

/-- So does the reference: its run, with the result's value dropped. -/
theorem frame_reference : Cert.frame_ReferenceIdeal := fun m ρ _ =>
  (θ_run Cert.ReferenceIdeal.defs _ _).mono (fun _ h c => (h c).2) (Cert.ReferenceIdeal.RefValue.run m ρ)

/-- The kernel's program over the extended reals is its printed text unchanged: nothing was rewritten. -/
theorem preserves : Cert.preserves_Kernel_KernelIdeal := trivial

/-- From memories that agree on the eight argument arrays, both programs end with their result at the layer of
    those arrays: the kernel's result array is the layer, the reference's is the layer of its own arguments, and the
    arguments agree. The two programs' gather and scatter-add carry the same dimension numbers. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.RefValue.run m' ρ')
  obtain ⟨h0, h1, h2, h3, h4, h5, h6, h7⟩ := hagree c
  rw [h0, h1, h2, h3, h4, h5, h6, h7]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
